-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4 : Shape := ⟨2, ![16384, 4]⟩
abbrev S16384x512 : Shape := ⟨2, ![16384, 512]⟩
abbrev S131072x2 : Shape := ⟨2, ![131072, 2]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S512x1 .f32) (main_arg6 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1 .f32 := Host.absf main_arg5
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16384x4 .f32) (main_arg1 : FVec F S16384x512 .f32) (main_arg2 : IVec S131072x2 32) (main_arg3 : FVec F S2048x512 .f32) (main_arg4 : FVec F S512 .f32) (main_arg5 : FVec F S512x1 .f32) (main_arg6 : FVec F S1 .f32) : IVec S_ 1 :=
  let main_v0 : FVec F S16384x4 .f32 := Host.absf main_arg0
  let main_cst : FVec F S_ .f32 := constant S_ .f32 0x7F800000#32
  let main_v1 : FVec F S16384x4 .f32 := broadcastInDim S16384x4 ![] bcast_S_S16384x4 main_cst
  let main_v2 : IVec S16384x4 1 := cmpf .olt main_v0 main_v1
  let main_c : IVec S_ 1 := constantI S_ 1 1#1
  let main_v3 : IVec S_ 1 := (fun x v => Host.reduce IntOp.andi x v reducesTo_S16384x4_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S2048x512 .f32 := Host.absf main_arg3
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S16384x4 : Shape := ⟨2, ![16384, 4]⟩
abbrev S16384x512 : Shape := ⟨2, ![16384, 512]⟩
abbrev S131072x2 : Shape := ⟨2, ![131072, 2]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S131072x1 : Shape := ⟨2, ![131072, 1]⟩
abbrev S131072 : Shape := ⟨1, ![131072]⟩
abbrev S_ : Shape := ⟨0, ![]⟩
abbrev S131072x512 : Shape := ⟨2, ![131072, 512]⟩
abbrev S512x512 : Shape := ⟨2, ![512, 512]⟩
abbrev S1x512 : Shape := ⟨2, ![1, 512]⟩
abbrev S1x1 : Shape := ⟨2, ![1, 1]⟩
abbrev S2048x1 : Shape := ⟨2, ![2048, 1]⟩
abbrev S2048 : Shape := ⟨1, ![2048]⟩

abbrev nBuf : Space → Nat
  | .hbm => 42
  | .vmem => 12
  | .smem => 0
  | _ => 0

abbrev bufTy : (tb : Table) → Fin (tcTables nBuf tb) → BufTy
  | .hbm, ⟨0, _⟩ => ⟨S16384x4, .f32⟩
  | .hbm, ⟨1, _⟩ => ⟨S16384x512, .f32⟩
  | .hbm, ⟨2, _⟩ => ⟨S131072x2, .i32⟩
  | .hbm, ⟨3, _⟩ => ⟨S2048x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S131072x1, .i32⟩
  | .hbm, ⟨8, _⟩ => ⟨S131072, .i32⟩
  | .hbm, ⟨9, _⟩ => ⟨S131072x1, .i32⟩
  | .hbm, ⟨10, _⟩ => ⟨S131072, .i32⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S131072, .i32⟩
  | .hbm, ⟨18, _⟩ => ⟨S131072x1, .i32⟩
  | .hbm, ⟨19, _⟩ => ⟨S131072x512, .f32⟩
  | .hbm, ⟨20, _⟩ => ⟨S_, .i32⟩
  | .hbm, ⟨21, _⟩ => ⟨S131072, .i32⟩
  | .hbm, ⟨22, _⟩ => ⟨S131072, .i1⟩
  | .hbm, ⟨23, _⟩ => ⟨S_, .i32⟩
  | .hbm, ⟨24, _⟩ => ⟨S131072, .i32⟩
  | .hbm, ⟨25, _⟩ => ⟨S131072, .i32⟩
  | .hbm, ⟨26, _⟩ => ⟨S131072, .i32⟩
  | .hbm, ⟨27, _⟩ => ⟨S131072x1, .i32⟩
  | .hbm, ⟨28, _⟩ => ⟨S131072x512, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S512x512, .bf16⟩
  | .hbm, ⟨35, _⟩ => ⟨S512x512, .f32⟩
  | .hbm, ⟨36, _⟩ => ⟨S512x512, .bf16⟩
  | .hbm, ⟨37, _⟩ => ⟨S512x512, .bf16⟩
  | .hbm, ⟨38, _⟩ => ⟨S1x512, .f32⟩
  | .hbm, ⟨39, _⟩ => ⟨S1x1, .f32⟩
  | .hbm, ⟨40, _⟩ => ⟨S131072x1, .f32⟩
  | .hbm, ⟨41, _⟩ => ⟨S131072, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512, .f32⟩
  | .local _ .vmem, ⟨8, _⟩ => ⟨S1x512, .f32⟩
  | .local _ .vmem, ⟨9, _⟩ => ⟨S1x1, .f32⟩
  | .local _ .vmem, ⟨10, _⟩ => ⟨S2048x1, .f32⟩
  | .local _ .vmem, ⟨11, _⟩ => ⟨S2048x1, .f32⟩
  | _, _ => ⟨S16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  slices_S2048x512_S512x512_0_0 : S2048x512.Slices ![0, 0] S512x512
  slices_S2048x512_S512x512_512_0 : S2048x512.Slices ![512, 0] S512x512
  slices_S2048x512_S512x512_1024_0 : S2048x512.Slices ![1024, 0] S512x512
  slices_S2048x512_S512x512_1536_0 : S2048x512.Slices ![1536, 0] S512x512
  bitsLt_bf16_f32 : FTy.bits .bf16 < FTy.bits .f32
  shapeCasts_S512x1_S1x512 : S512x1.ShapeCasts S1x512
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x512_S2048 : S2048x512.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S16384x512_S131072x1_S131072x512_1_0_n_n_0_1_1512_wf : GatherDims.WF S16384x512 S131072x1 S131072x512 [1] [0] [] [0] [] 1 ![1, 512]
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .f32 = 32 ∨ (Rect.block (s := S131072x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1.size a ≤ S131072x1.size a
  hwx0_8 : ∀ i : grid0.Coords, EltTy.bits .f32 = 32 ∨ (Rect.block (s := S131072x1) S2048x1.size (cc0_transform_8 i) (hinb0_8 i)).WholeWords (EltTy.packing .f32)

variable [Facts₀]

def gather_S16384x512_S131072x1_S131072x512_1_0_n_n_0_1_1512 : GatherDims S16384x512 S131072x1 S131072x512 where
  offsetDims := [1]
  collapsedSliceDims := [0]
  operandBatchingDims := []
  startIndicesBatchingDims := []
  startIndexMap := [0]
  indexVectorDim := 1
  sliceSizes := ![1, 512]
  wf := gather_S16384x512_S131072x1_S131072x512_1_0_n_n_0_1_1512_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v10) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S2048x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x4 : Shape := ⟨2, ![16384, 4]⟩
abbrev S16384x512 : Shape := ⟨2, ![16384, 512]⟩
abbrev S131072x2 : Shape := ⟨2, ![131072, 2]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S131072x1 : Shape := ⟨2, ![131072, 1]⟩
abbrev S131072 : Shape := ⟨1, ![131072]⟩
abbrev S_ : Shape := ⟨0, ![]⟩
abbrev S131072x512 : Shape := ⟨2, ![131072, 512]⟩
abbrev S131072x2048 : Shape := ⟨2, ![131072, 2048]⟩
abbrev S1x512 : Shape := ⟨2, ![1, 512]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S16384x4, .f32⟩
  | .hbm, ⟨1, _⟩ => ⟨S16384x512, .f32⟩
  | .hbm, ⟨2, _⟩ => ⟨S131072x2, .i32⟩
  | .hbm, ⟨3, _⟩ => ⟨S2048x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S131072x1, .i32⟩
  | .hbm, ⟨8, _⟩ => ⟨S131072, .i32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S131072x1, .i32⟩
  | .hbm, ⟨17, _⟩ => ⟨S131072x512, .f32⟩
  | .hbm, ⟨18, _⟩ => ⟨S131072x1, .i32⟩
  | .hbm, ⟨19, _⟩ => ⟨S131072, .i32⟩
  | .hbm, ⟨20, _⟩ => ⟨S_, .i32⟩
  | .hbm, ⟨21, _⟩ => ⟨S131072, .i32⟩
  | .hbm, ⟨22, _⟩ => ⟨S131072, .i1⟩
  | .hbm, ⟨23, _⟩ => ⟨S_, .i32⟩
  | .hbm, ⟨24, _⟩ => ⟨S131072, .i32⟩
  | .hbm, ⟨25, _⟩ => ⟨S131072, .i32⟩
  | .hbm, ⟨26, _⟩ => ⟨S131072, .i32⟩
  | .hbm, ⟨27, _⟩ => ⟨S131072x1, .i32⟩
  | .hbm, ⟨28, _⟩ => ⟨S131072x512, .f32⟩
  | .hbm, ⟨29, _⟩ => ⟨S131072x512, .f32⟩
  | .hbm, ⟨30, _⟩ => ⟨S131072x512, .f32⟩
  | .hbm, ⟨31, _⟩ => ⟨S131072x2048, .f32⟩
  | .hbm, ⟨32, _⟩ => ⟨S131072x512, .f32⟩
  | .hbm, ⟨33, _⟩ => ⟨S1x512, .f32⟩
  | .hbm, ⟨34, _⟩ => ⟨S131072x512, .f32⟩
  | .hbm, ⟨35, _⟩ => ⟨S131072x512, .f32⟩
  | .hbm, ⟨36, _⟩ => ⟨S_, .f32⟩
  | .hbm, ⟨37, _⟩ => ⟨S131072x512, .f32⟩
  | .hbm, ⟨38, _⟩ => ⟨S131072x512, .f32⟩
  | .hbm, ⟨39, _⟩ => ⟨S131072x1, .f32⟩
  | .hbm, ⟨40, _⟩ => ⟨S1x1, .f32⟩
  | .hbm, ⟨41, _⟩ => ⟨S131072x1, .f32⟩
  | .hbm, ⟨42, _⟩ => ⟨S131072x1, .f32⟩
  | .hbm, ⟨43, _⟩ => ⟨S131072x1, .f32⟩
  | .hbm, ⟨44, _⟩ => ⟨S131072x1, .f32⟩
  | .hbm, ⟨45, _⟩ => ⟨S_, .f32⟩
  | .hbm, ⟨46, _⟩ => ⟨S131072x1, .f32⟩
  | .hbm, ⟨47, _⟩ => ⟨S131072x1, .f32⟩
  | .hbm, ⟨48, _⟩ => ⟨S_, .f32⟩
  | .hbm, ⟨49, _⟩ => ⟨S131072x1, .f32⟩
  | .hbm, ⟨50, _⟩ => ⟨S131072x1, .f32⟩
  | .hbm, ⟨51, _⟩ => ⟨S131072, .f32⟩
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S131072x2_S131072x1_0_0 : S131072x2.Slices ![0, 0] S131072x1
  shapeCasts_S131072x1_S131072 : S131072x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S131072x2_S131072x1_0_1 : S131072x2.Slices ![0, 1] S131072x1
  concatenates_S131072x512_S131072x512_S131072x512_S131072x512_S131072x2048_d1 : Shape.Concatenates [S131072x512, S131072x512, S131072x512, S131072x512] S131072x2048 1
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x1 : S_.BroadcastsInDim S131072x1 (![] : Fin 0 → Fin S131072x1.rank)
  gather_S16384x512_S131072x1_S131072x512_1_0_n_n_0_1_1512_wf : GatherDims.WF S16384x512 S131072x1 S131072x512 [1] [0] [] [0] [] 1 ![1, 512]
  dot_S131072x2048_S2048x512_S131072x512_1_0_0_1_n_n_wf : DotDims.WF S131072x2048 S2048x512 S131072x512 [1] [0] [0] [1] [] []
  dot_S131072x512_S512x1_S131072x1_1_0_0_1_n_n_wf : DotDims.WF S131072x512 S512x1 S131072x1 [1] [0] [0] [1] [] []

variable [Facts₀]

def gather_S16384x512_S131072x1_S131072x512_1_0_n_n_0_1_1512 : GatherDims S16384x512 S131072x1 S131072x512 where
  offsetDims := [1]
  collapsedSliceDims := [0]
  operandBatchingDims := []
  startIndicesBatchingDims := []
  startIndexMap := [0]
  indexVectorDim := 1
  sliceSizes := ![1, 512]
  wf := gather_S16384x512_S131072x1_S131072x512_1_0_n_n_0_1_1512_wf
def dot_S131072x2048_S2048x512_S131072x512_1_0_0_1_n_n : DotDims S131072x2048 S2048x512 S131072x512 where
  lhsContracting := [1]
  rhsContracting := [0]
  lhsNonContracting := [0]
  rhsNonContracting := [1]
  lhsBatch := []
  rhsBatch := []
  wf := dot_S131072x2048_S2048x512_S131072x512_1_0_0_1_n_n_wf
def dot_S131072x512_S512x1_S131072x1_1_0_0_1_n_n : DotDims S131072x512 S512x1 S131072x1 where
  lhsContracting := [1]
  rhsContracting := [0]
  lhsNonContracting := [0]
  rhsNonContracting := [1]
  lhsBatch := []
  rhsBatch := []
  wf := dot_S131072x512_S512x1_S131072x1_1_0_0_1_n_n_wf

class Facts : Prop extends Facts₀ where

variable [Facts]
-- ==== Proof.PairScore.lean ====
/-
  The pair scorer as mathematics, free of any program.

  One pair has a source row `s` and a destination row `d`, each of 512 extended reals. Its feature row is the four
  blocks `[s, d, d − s, s · d]` laid end to end (2048 coordinates). A hidden unit with weight column `w` (2048
  coordinates) and bias `β` has the pre-activation `∑ c, feat c · w c + β` (`hidCat`). Splitting `w` into its four
  blocks `A, B, C, D` of 512, the same number is `∑ s·(A − C) + ∑ d·(B + C) + ∑ (s·d)·D + β` (`hidSplit`) whenever
  the rows and the weights are finite reals: `s·(A − C) + d·(B + C) = s·A + d·B + (d − s)·C` is distributivity, which on
  the extended reals needs finiteness. The score of the pair is the logistic function of the second layer's affine map
  of the rectified hidden units (`score`).
-/
import Idealize.ShloMosaic.PureOps.Ideal

noncomputable section

namespace Cert.PairScore

open Idealize.ShloMosaic

/-- Coordinate `k` of block `q` (of the four blocks of 512) of the joined axis. -/
def blk (q : Fin 4) (k : Fin 512) : Fin 2048 := ⟨q.val * 512 + k.val, by have := k.isLt; have := q.isLt; omega⟩

/-- The feature row `[s, d, d − s, s · d]` of one pair at coordinate `c` of the joined axis. -/
def feat (s d : Fin 512 → EReal) (c : Fin 2048) : EReal :=
  if h0 : c.val < 512 then s ⟨c.val, h0⟩
  else if h1 : c.val < 1024 then d ⟨c.val - 512, by omega⟩
  else if h2 : c.val < 1536 then d ⟨c.val - 1024, by omega⟩ - s ⟨c.val - 1024, by omega⟩
  else s ⟨c.val - 1536, by omega⟩ * d ⟨c.val - 1536, by omega⟩

/-- A hidden unit's pre-activation over the joined feature row: `∑ c, feat c · w c + β`. -/
def hidCat (s d : Fin 512 → EReal) (w : Fin 2048 → EReal) (β : EReal) : EReal :=
  (∑ c : Fin 2048, feat s d c * w c) + β

/-- The same pre-activation from three products of width 512: `s` against `a`, `d` against `b`, `s · d` against `e`. -/
def hidSplit (s d a b e : Fin 512 → EReal) (β : EReal) : EReal :=
  (((∑ c : Fin 512, s c * a c) + (∑ c : Fin 512, d c * b c)) + (∑ c : Fin 512, (s c * d c) * e c)) + β

/-- The pair's score: the logistic function of `∑ k, max (hid k) z · w₂ k + β₂` (`z` is the rectifier's floor, zero). -/
def score (z : EReal) (hid w2 : Fin 512 → EReal) (β2 : EReal) : EReal :=
  Ideal.logistic ((∑ k : Fin 512, max (hid k) z * w2 k) + β2)

end Cert.PairScore

end
-- ==== Proof.LibColumn.lean ====
/-
  Column vectors read at an index given by coordinates.

  A column is a matrix with ONE column, shape `[a, 1]`. Three layout operations on columns, each read at an index
  written `ix2 …`: a vector `[a]` cast to a column reads, at `(i, u)`, the vector at `i`; a column cast to a row `[1, a]`
  reads, at `(u, i)`, the column at `(i, 0)` (the same row-major position); a column broadcast to a matrix `[a, b]` reads,
  at `(p, c)`, the column at `(p, 0)`, whatever `c`. They are the column counterparts of the row forms (a vector cast to a
  row, a row broadcast over many rows).
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.StoredValue.lean ====
/-
  The kernel body's stored value, read at one row of the block.

  The body takes a block of 2048 source rows `x0` and destination rows `x1` (512 wide), three 512×512 weight matrices
  `x2, x3, x4`, the first bias `x5`, the second layer's weights as one row `x6` and the second bias `x7`. At row `r` it
  stores the score of the pair whose hidden unit `k` has the pre-activation
  `∑ x0[r,c]·x2[c,k] + ∑ x1[r,c]·x3[c,k] + ∑ (x0[r,c]·x1[r,c])·x4[c,k] + x5[k]`: three matrix products into zero
  accumulators, each a plain sum over the contracted coordinate on the extended reals (a change of float format is the
  identity there), the bias row broadcast over the rows, the rectifier a maximum with zero, the second layer a sum along
  the row of products with the broadcast weight row, and the logistic function.
-/
import proofs.«147180_j51616916963853_2_alg».proof.Proof.Gen.KernelIdeal.Skeleton
import proofs.«147180_j51616916963853_2_alg».proof.Proof.PairScore
import proofs.«147180_j51616916963853_2_alg».proof.Proof.LibColumn
import proofs.«147180_j51616916963853_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen Cert.PairScore

/-- One first-layer product at entry `(r, k)`: the sum over the contracted coordinate of row `r` of the left operand
    times column `k` of the weights. -/
theorem product_apply (a : FVec Ideal S2048x512 .f32) (b : FVec Ideal S512x512 .bf16) (r : Fin 2048) (k : Fin 512) :
    matmul dot_S2048x512_S512x512_S2048x512_1_0_0_1_n_n none (truncf .bf16 a bitsLt_bf16_f32)
        b (constant S2048x512 .f32 0x00000000#32) (ix2 r k)
      = ∑ c : Fin 512, a (ix2 r c) * b (ix2 c k) :=
  LibPlainProduct.matmul_plain_zero_apply none (truncf .bf16 a bitsLt_bf16_f32) b r k

/-- The sum along a row: the lane reduction of a 2048×512 block at row `r`. -/
theorem rowSum_apply (v : FVec Ideal S2048x512 .f32) (hφ : FKind.Formats .f32)
    (hacc : (0x00000000#32 : BitVec 32) = 0x00000000#32) (r : Fin 2048) :
    multiReduction .add [1] S2048 v 0x00000000#32 reduces_S2048x512_S2048 hφ hacc (ix1 r) = ∑ k : Fin 512, v (ix2 r k) := by
  refine (Ideal.multiReduction_add_single v 0x00000000#32 reduces_S2048x512_S2048 hφ hacc (ix1 r)).trans ?_
  refine Finset.sum_congr rfl fun k _ => congrArg v ?_
  funext a; apply Fin.ext
  match a with
  | ⟨0, _⟩ => rfl
  | ⟨1, _⟩ => rfl

/-- THE STORED VALUE at row `r`: the score of the pair in that row. -/
theorem stored_apply (x0 x1 : Vec Ideal S2048x512 .f32) (x2 x3 x4 : Vec Ideal S512x512 .bf16) (x5 : Vec Ideal S512 .f32)
    (x6 : Vec Ideal S1x512 .f32) (x7 : Vec Ideal S1x1 .f32) (r : Fin 2048) (u : Fin 1) :
    k0_pay1 x0 x1 x2 x3 x4 x5 x6 x7 (ix2 r u)
      = score (Ideal.ofBits .f32 0x00000000#32)
          (fun k => hidSplit (fun c => x0 (ix2 r c)) (fun c => x1 (ix2 r c)) (fun c => x2 (ix2 c k))
            (fun c => x3 (ix2 c k)) (fun c => x4 (ix2 c k)) (x5 (ix1 k)))
          (fun k => x6 (ix2 0 k)) (x7 (ix2 0 0)) := by
  unfold k0_pay1
  simp only [shapeCast_self]
  show Ideal.logistic (_ + _) = _
  unfold score
  refine congrArg Ideal.logistic (congrArg₂ (· + ·) ?_ ?_)
  · refine (LibColumn.shapeCast_a_a1_apply _ _ r u).trans ?_
    refine (rowSum_apply _ _ _ r).trans ?_
    refine Finset.sum_congr rfl fun k _ => ?_
    show max (_ + _) _ * _ = _
    refine congrArg₂ (· * ·) (congrArg (max · (Ideal.ofBits .f32 0x00000000#32)) ?_) (broadcastTo_1b_ab_apply x6 _ r k)
    unfold hidSplit
    refine congrArg₂ (· + ·) (congrArg₂ (· + ·) (congrArg₂ (· + ·) (product_apply x0 x2 r k) (product_apply x1 x3 r k))
      (product_apply (mulf x0 x1) x4 r k)) ?_
    exact (broadcastTo_1b_ab_apply _ _ r k).trans (shapeCast_a_1a_apply x5 _ 0 k)
  · refine (broadcastTo_1b_ab_apply x7 _ r u).trans ?_
    obtain rfl : u = 0 := Subsingleton.elim _ _
    rfl

/-- The same at any index `y` of the block: only the row `y 0` matters. -/
theorem stored_at (x0 x1 : Vec Ideal S2048x512 .f32) (x2 x3 x4 : Vec Ideal S512x512 .bf16) (x5 : Vec Ideal S512 .f32)
    (x6 : Vec Ideal S1x512 .f32) (x7 : Vec Ideal S1x1 .f32) (y : S2048x1.Idx) :
    k0_pay1 x0 x1 x2 x3 x4 x5 x6 x7 y
      = score (Ideal.ofBits .f32 0x00000000#32)
          (fun k => hidSplit (fun c => x0 (ix2 (y 0) c)) (fun c => x1 (ix2 (y 0) c)) (fun c => x2 (ix2 c k))
            (fun c => x3 (ix2 c k)) (fun c => x4 (ix2 c k)) (x5 (ix1 k)))
          (fun k => x6 (ix2 0 k)) (x7 (ix2 0 0)) := by
  obtain ⟨r, u, rfl⟩ : ∃ (r : Fin 2048) (u : Fin 1), y = ix2 r u := ⟨y 0, y 1, eq_ix2 y⟩
  exact stored_apply x0 x1 x2 x3 x4 x5 x6 x7 r u

end Cert.KernelIdeal.Hand

end
-- ==== Proof.PairAlgebra.lean ====
/-
  The two arrangements of a hidden unit's pre-activation agree on finite data.
-/
import proofs.«147180_j51616916963853_2_alg».proof.Proof.PairScore

noncomputable section

namespace Cert.PairScore

/-- A finite sum of coerced reals is the coercion of the real sum. -/
theorem coe_sum_real {ι : Type*} (t : Finset ι) (f : ι → ℝ) :
    (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- A sum over the joined axis is the sum of the sums over its four blocks. -/
theorem sum_blk {M : Type*} [AddCommMonoid M] (f : Fin 2048 → M) :
    (∑ c : Fin 2048, f c)
      = (∑ k : Fin 512, f (blk 0 k)) + (∑ k : Fin 512, f (blk 1 k)) + (∑ k : Fin 512, f (blk 2 k))
          + (∑ k : Fin 512, f (blk 3 k)) := by
  let e : Fin 4 × Fin 512 ≃ Fin 2048 := (finProdFinEquiv : Fin 4 × Fin 512 ≃ Fin (4 * 512))
  have h : ∀ q k, e (q, k) = blk q k := by
    intro q k
    apply Fin.ext
    simp only [e, blk, finProdFinEquiv, Equiv.coe_fn_mk]
    ring
  rw [← e.sum_comp f, Fintype.sum_prod_type, Fin.sum_univ_four]
  simp only [h]

/-- On the first block the feature row is the source row. -/
theorem feat_blk0 (s d : Fin 512 → EReal) (k : Fin 512) : feat s d (blk 0 k) = s k := by
  have hk := k.isLt
  simp only [feat, blk, Fin.val_zero, zero_mul, zero_add, hk, dite_true, Fin.eta]

/-- On the second block the feature row is the destination row. -/
theorem feat_blk1 (s d : Fin 512 → EReal) (k : Fin 512) : feat s d (blk 1 k) = d k := by
  have hk := k.isLt
  have v1 : ((1 : Fin 4) : ℕ) = 1 := rfl
  have h0 : ¬ (1 * 512 + k.val < 512) := by omega
  have h1 : 1 * 512 + k.val < 1024 := by omega
  have e1 : 1 * 512 + k.val - 512 = k.val := by omega
  simp only [feat, blk, v1, h0, h1, dite_true, dite_false, e1, Fin.eta]

/-- On the third block the feature row is the difference `d − s`. -/
theorem feat_blk2 (s d : Fin 512 → EReal) (k : Fin 512) : feat s d (blk 2 k) = d k - s k := by
  have hk := k.isLt
  have v2 : ((2 : Fin 4) : ℕ) = 2 := rfl
  have h0 : ¬ (2 * 512 + k.val < 512) := by omega
  have h1 : ¬ (2 * 512 + k.val < 1024) := by omega
  have h2 : 2 * 512 + k.val < 1536 := by omega
  have e1 : 2 * 512 + k.val - 1024 = k.val := by omega
  simp only [feat, blk, v2, h0, h1, h2, dite_true, dite_false, e1, Fin.eta]

/-- On the fourth block the feature row is the product `s · d`. -/
theorem feat_blk3 (s d : Fin 512 → EReal) (k : Fin 512) : feat s d (blk 3 k) = s k * d k := by
  have hk := k.isLt
  have v3 : ((3 : Fin 4) : ℕ) = 3 := rfl
  have h0 : ¬ (3 * 512 + k.val < 512) := by omega
  have h1 : ¬ (3 * 512 + k.val < 1024) := by omega
  have h2 : ¬ (3 * 512 + k.val < 1536) := by omega
  have e1 : 3 * 512 + k.val - 1536 = k.val := by omega
  simp only [feat, blk, v3, h0, h1, h2, dite_false, e1, Fin.eta]

/-- With finite rows and finite weights, the three width-512 products against `A − C`, `B + C` and `D` (the weight
    column's four blocks) add up to the product of the joined feature row `[s, d, d − s, s · d]` with the whole column. -/
theorem hidSplit_eq_hidCat (s d : Fin 512 → EReal) (w : Fin 2048 → EReal) (β : EReal)
    (hs : ∀ k, ∃ r : ℝ, s k = (r : EReal)) (hd : ∀ k, ∃ r : ℝ, d k = (r : EReal))
    (hw : ∀ c, ∃ r : ℝ, w c = (r : EReal)) :
    hidSplit s d (fun k => w (blk 0 k) - w (blk 2 k)) (fun k => w (blk 1 k) + w (blk 2 k)) (fun k => w (blk 3 k)) β
      = hidCat s d w β := by
  -- Choose the real numbers behind the rows and the weights.
  choose s' hs' using hs
  choose d' hd' using hd
  choose w' hw' using hw
  obtain rfl : s = fun k => (s' k : EReal) := funext hs'
  obtain rfl : d = fun k => (d' k : EReal) := funext hd'
  obtain rfl : w = fun c => (w' c : EReal) := funext hw'
  unfold hidSplit hidCat
  -- The bias is added to both sides; compare what comes before it.
  refine congrArg (fun x : EReal => x + β) ?_
  -- Cut the joined sum into its four blocks and read the feature row off each block.
  rw [sum_blk (fun c => feat (fun k => (s' k : EReal)) (fun k => (d' k : EReal)) c * (w' c : EReal))]
  simp only [feat_blk0, feat_blk1, feat_blk2, feat_blk3]
  -- Both sides are now coercions of real expressions.
  simp only [← EReal.coe_mul, ← EReal.coe_sub, ← EReal.coe_add, coe_sum_real]
  rw [EReal.coe_eq_coe_iff]
  -- In the reals: `s·(A − C) + d·(B + C) = s·A + d·B + (d − s)·C`, summed over the block.
  simp only [mul_sub, mul_add, sub_mul, Finset.sum_sub_distrib, Finset.sum_add_distrib]
  ring

end Cert.PairScore

end
-- ==== Proof.Scores.lean ====
/-
  The score of pair `p` as a function of the whole arrays, in the two arrangements.

  `src` and `dst` hold one row of 512 per pair (131072 pairs), `W1` is the 2048×512 first-layer matrix, `b1` its bias,
  `W2` the 512×1 second-layer matrix and `b2` its bias. `refScore` multiplies the joined feature row
  `[src, dst, dst − src, src · dst]` of the pair with each column of `W1`; `kernelScore` multiplies `src`, `dst` and
  `src · dst` with the blocks `A − C`, `B + C` and `D` of that column. They agree when `src`, `dst` and `W1` are finite.
-/
import proofs.«147180_j51616916963853_2_alg».proof.Proof.PairScore
import proofs.«147180_j51616916963853_2_alg».proof.Proof.PairAlgebra
import Idealize.ShloMosaic.Lib.ValueIdx

noncomputable section

namespace Cert.PairScore

open Idealize.ShloMosaic Idealize.ShloMosaic.ValueIdx

/-- The rectifier's floor: the f32 zero word, read on the extended reals. -/
abbrev floor0 : EReal := Ideal.ofBits .f32 0x00000000#32

/-- The score of pair `p` from three width-512 products per hidden unit. -/
def kernelScore (src dst : (⟨2, ![131072, 512]⟩ : Shape).Idx → EReal) (W1 : (⟨2, ![2048, 512]⟩ : Shape).Idx → EReal)
    (b1 : (⟨1, ![512]⟩ : Shape).Idx → EReal) (W2 : (⟨2, ![512, 1]⟩ : Shape).Idx → EReal)
    (b2 : (⟨1, ![1]⟩ : Shape).Idx → EReal) (p : Fin 131072) : EReal :=
  score floor0
    (fun k => hidSplit (fun c => src (ix2 p c)) (fun c => dst (ix2 p c))
      (fun c => W1 (ix2 (blk 0 c) k) - W1 (ix2 (blk 2 c) k)) (fun c => W1 (ix2 (blk 1 c) k) + W1 (ix2 (blk 2 c) k))
      (fun c => W1 (ix2 (blk 3 c) k)) (b1 (ix1 k)))
    (fun k => W2 (ix2 k 0)) (b2 (ix1 0))

/-- The score of pair `p` from the joined feature row against each whole column of `W1`. -/
def refScore (src dst : (⟨2, ![131072, 512]⟩ : Shape).Idx → EReal) (W1 : (⟨2, ![2048, 512]⟩ : Shape).Idx → EReal)
    (b1 : (⟨1, ![512]⟩ : Shape).Idx → EReal) (W2 : (⟨2, ![512, 1]⟩ : Shape).Idx → EReal)
    (b2 : (⟨1, ![1]⟩ : Shape).Idx → EReal) (p : Fin 131072) : EReal :=
  score floor0
    (fun k => hidCat (fun c => src (ix2 p c)) (fun c => dst (ix2 p c)) (fun c => W1 (ix2 c k)) (b1 (ix1 k)))
    (fun k => W2 (ix2 k 0)) (b2 (ix1 0))

/-- On finite rows and finite first-layer weights the two arrangements give one score. -/
theorem kernelScore_eq_refScore (src dst : (⟨2, ![131072, 512]⟩ : Shape).Idx → EReal)
    (W1 : (⟨2, ![2048, 512]⟩ : Shape).Idx → EReal) (b1 : (⟨1, ![512]⟩ : Shape).Idx → EReal)
    (W2 : (⟨2, ![512, 1]⟩ : Shape).Idx → EReal) (b2 : (⟨1, ![1]⟩ : Shape).Idx → EReal)
    (hsrc : ∀ i, ∃ r : ℝ, src i = (r : EReal)) (hdst : ∀ i, ∃ r : ℝ, dst i = (r : EReal))
    (hW1 : ∀ i, ∃ r : ℝ, W1 i = (r : EReal)) (p : Fin 131072) :
    kernelScore src dst W1 b1 W2 b2 p = refScore src dst W1 b1 W2 b2 p := by
  unfold kernelScore refScore
  refine congrArg (fun h => score floor0 h (fun k => W2 (ix2 k 0)) (b2 (ix1 0))) (funext fun k => ?_)
  exact hidSplit_eq_hidCat _ _ (fun c => W1 (ix2 c k)) _ (fun c => hsrc _) (fun c => hdst _) (fun c => hW1 _)

/-! ## Congruences: the score and the pre-activation depend only on the values read -/

theorem hidSplit_congr {s s' d d' a a' b b' e e' : Fin 512 → EReal} {β β' : EReal} (hs : ∀ c, s c = s' c)
    (hd : ∀ c, d c = d' c) (ha : ∀ c, a c = a' c) (hb : ∀ c, b c = b' c) (he : ∀ c, e c = e' c) (hβ : β = β') :
    hidSplit s d a b e β = hidSplit s' d' a' b' e' β' := by
  obtain rfl : s = s' := funext hs
  obtain rfl : d = d' := funext hd
  obtain rfl : a = a' := funext ha
  obtain rfl : b = b' := funext hb
  obtain rfl : e = e' := funext he
  rw [hβ]

theorem score_congr {z : EReal} {hid hid' w2 w2' : Fin 512 → EReal} {β β' : EReal} (h1 : ∀ k, hid k = hid' k)
    (h2 : ∀ k, w2 k = w2' k) (h3 : β = β') : score z hid w2 β = score z hid' w2' β' := by
  obtain rfl : hid = hid' := funext h1
  obtain rfl : w2 = w2' := funext h2
  rw [h3]

/-! ## The arrays the kernel's host side prepares, and the result array -/

/-- `A − C`: the first row block of `W1` minus the third. -/
def waOf (W1 : (⟨2, ![2048, 512]⟩ : Shape).Idx → EReal) : (⟨2, ![512, 512]⟩ : Shape).Idx → EReal :=
  fun i => W1 (ix2 (blk 0 (i 0)) (i 1)) - W1 (ix2 (blk 2 (i 0)) (i 1))

/-- `B + C`: the second row block of `W1` plus the third. -/
def wbOf (W1 : (⟨2, ![2048, 512]⟩ : Shape).Idx → EReal) : (⟨2, ![512, 512]⟩ : Shape).Idx → EReal :=
  fun i => W1 (ix2 (blk 1 (i 0)) (i 1)) + W1 (ix2 (blk 2 (i 0)) (i 1))

/-- `D`: the fourth row block of `W1`. -/
def wdOf (W1 : (⟨2, ![2048, 512]⟩ : Shape).Idx → EReal) : (⟨2, ![512, 512]⟩ : Shape).Idx → EReal :=
  fun i => W1 (ix2 (blk 3 (i 0)) (i 1))

/-- The second-layer weights laid out as one row. -/
def w2RowOf (W2 : (⟨2, ![512, 1]⟩ : Shape).Idx → EReal) : (⟨2, ![1, 512]⟩ : Shape).Idx → EReal :=
  fun i => W2 (ix2 (i 1) (0 : Fin 1))

/-- The second bias as a 1×1 array. -/
def b2Of (b2 : (⟨1, ![1]⟩ : Shape).Idx → EReal) : (⟨2, ![1, 1]⟩ : Shape).Idx → EReal :=
  fun _ => b2 (ix1 (0 : Fin 1))

/-- The result array as one function of the arrays the kernel is launched on: row `i 0` holds the score built from that
    row of the source and destination arrays and the whole weight arrays. -/
def outArr (src dst : (⟨2, ![131072, 512]⟩ : Shape).Idx → EReal) (wa wb wd : (⟨2, ![512, 512]⟩ : Shape).Idx → EReal)
    (b1 : (⟨1, ![512]⟩ : Shape).Idx → EReal) (w2 : (⟨2, ![1, 512]⟩ : Shape).Idx → EReal)
    (b2 : (⟨2, ![1, 1]⟩ : Shape).Idx → EReal) : (⟨2, ![131072, 1]⟩ : Shape).Idx → EReal := fun i =>
  score floor0
    (fun k => hidSplit (fun c' => src (ix2 (i 0) c')) (fun c' => dst (ix2 (i 0) c')) (fun c' => wa (ix2 c' k))
      (fun c' => wb (ix2 c' k)) (fun c' => wd (ix2 c' k)) (b1 (ix1 k)))
    (fun k => w2 (ix2 (0 : Fin 1) k)) (b2 (ix2 (0 : Fin 1) (0 : Fin 1)))

/-- On the prepared arrays the result array's row `p` is `kernelScore` of pair `p`. -/
theorem outArr_prepared (src dst : (⟨2, ![131072, 512]⟩ : Shape).Idx → EReal) (W1 : (⟨2, ![2048, 512]⟩ : Shape).Idx → EReal)
    (b1 : (⟨1, ![512]⟩ : Shape).Idx → EReal) (W2 : (⟨2, ![512, 1]⟩ : Shape).Idx → EReal)
    (b2 : (⟨1, ![1]⟩ : Shape).Idx → EReal) (p : Fin 131072) (u : Fin 1) :
    outArr src dst (waOf W1) (wbOf W1) (wdOf W1) b1 (w2RowOf W2) (b2Of b2) (ix2 p u)
      = kernelScore src dst W1 b1 W2 b2 p := rfl

end Cert.PairScore

end
-- ==== Proof.BlockRows.lean ====
/-
  The array the kernel leaves: row `p` holds the score of pair `p`.

  The grid has 64 points; point `t` stages rows `2048·t … 2048·t + 2047` of the source and destination arrays, the whole of
  every weight and bias array, and writes back rows `2048·t … 2048·t + 2047` of the result. What it writes back is
  therefore that block of ONE function of the arrays the region finds, `outArr`: at row `p`, the score built from row `p`
  of the source and destination arrays. The 64 blocks tile the result (row `p` is in block `p / 2048`), so the array ends
  holding `outArr`.
-/
import proofs.«147180_j51616916963853_2_alg».proof.Proof.Gen.KernelIdeal.Frame
import proofs.«147180_j51616916963853_2_alg».proof.Proof.StoredValue
import proofs.«147180_j51616916963853_2_alg».proof.Proof.Scores
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.ValueIdx Cert.KernelIdeal Cert.KernelIdeal.Gen Cert.PairScore
open Idealize.ShloMosaic.Pipeline (Dat)

variable (m : (ℓ : Loc nD τ sig) → Buf (Elt Ideal) ℓ)

theorem off2 : (![0, 0] : Fin 2 → Nat) = fun _ => 0 := funext fun a => by fin_cases a <;> rfl
theorem off1 : (![0] : Fin 1 → Nat) = fun _ => 0 := funext fun a => by fin_cases a <;> rfl

/-- The printed index maps over the grid: the row windows and the result window are at block `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- A row window's block at point `t`: row `r` of the block is row `2048·t + r` of the array (windows 0 and 1). -/
theorem rows0 (c : Dev nD) (t : Fin cfg0.N) (r : Fin 2048) (c' : Fin 512) (i : S131072x1.Idx)
    (hi : (i 0).val = t.val * 2048 + r.val) :
    (iblk m c 0 t : Vec Ideal S2048x512 .f32) (ix2 r c') = (V m c main_v10 : S131072x512.Idx → EReal) (ix2 (i 0) c') := by
  obtain ⟨e00, e01, -⟩ := idx_facts t
  unfold iblk
  rw [View.read_apply]
  show V m c main_v10 _ = V m c main_v10 _
  congr 1
  funext a; apply Fin.ext
  match a with
  | ⟨0, _⟩ => show win0_0.index t (0 : Fin 2) * 2048 + 1 * r.val = (i 0).val; rw [e00, hi]; omega
  | ⟨1, _⟩ => show win0_0.index t (1 : Fin 2) * 512 + 1 * c'.val = c'.val; rw [e01]; omega

theorem rows1 (c : Dev nD) (t : Fin cfg0.N) (r : Fin 2048) (c' : Fin 512) (i : S131072x1.Idx)
    (hi : (i 0).val = t.val * 2048 + r.val) :
    (iblk m c 1 t : Vec Ideal S2048x512 .f32) (ix2 r c') = (V m c main_v17 : S131072x512.Idx → EReal) (ix2 (i 0) c') := by
  obtain ⟨-, -, e10, e11, -⟩ := idx_facts t
  unfold iblk
  rw [View.read_apply]
  show V m c main_v17 _ = V m c main_v17 _
  congr 1
  funext a; apply Fin.ext
  match a with
  | ⟨0, _⟩ => show win0_1.index t (0 : Fin 2) * 2048 + 1 * r.val = (i 0).val; rw [e10, hi]; omega
  | ⟨1, _⟩ => show win0_1.index t (1 : Fin 2) * 512 + 1 * c'.val = c'.val; rw [e11]; omega

/-- The weight and bias windows stage their whole arrays at every point. -/
theorem whole2 (c : Dev nD) (t : Fin cfg0.N) (y : S512x512.Idx) :
    (iblk m c 2 t : Vec Ideal S512x512 .bf16) y = (V m c main_v23 : S512x512.Idx → EReal) y := by
  obtain ⟨-, -, -, -, e20, e21, -⟩ := idx_facts t
  unfold iblk
  rw [View.read_apply]
  show V m c main_v23 _ = V m c main_v23 _
  congr 1
  funext a; apply Fin.ext
  match a with
  | ⟨0, _⟩ => show win0_2.index t (0 : Fin 2) * 512 + 1 * (y 0).val = (y 0).val; rw [e20]; omega
  | ⟨1, _⟩ => show win0_2.index t (1 : Fin 2) * 512 + 1 * (y 1).val = (y 1).val; rw [e21]; omega

theorem whole3 (c : Dev nD) (t : Fin cfg0.N) (y : S512x512.Idx) :
    (iblk m c 3 t : Vec Ideal S512x512 .bf16) y = (V m c main_v25 : S512x512.Idx → EReal) y := by
  obtain ⟨-, -, -, -, -, -, e30, e31, -⟩ := idx_facts t
  unfold iblk
  rw [View.read_apply]
  show V m c main_v25 _ = V m c main_v25 _
  congr 1
  funext a; apply Fin.ext
  match a with
  | ⟨0, _⟩ => show win0_3.index t (0 : Fin 2) * 512 + 1 * (y 0).val = (y 0).val; rw [e30]; omega
  | ⟨1, _⟩ => show win0_3.index t (1 : Fin 2) * 512 + 1 * (y 1).val = (y 1).val; rw [e31]; omega

theorem whole4 (c : Dev nD) (t : Fin cfg0.N) (y : S512x512.Idx) :
    (iblk m c 4 t : Vec Ideal S512x512 .bf16) y = (V m c main_v26 : S512x512.Idx → EReal) y := by
  obtain ⟨-, -, -, -, -, -, -, -, e40, e41, -⟩ := idx_facts t
  unfold iblk
  rw [View.read_apply]
  show V m c main_v26 _ = V m c main_v26 _
  congr 1
  funext a; apply Fin.ext
  match a with
  | ⟨0, _⟩ => show win0_4.index t (0 : Fin 2) * 512 + 1 * (y 0).val = (y 0).val; rw [e40]; omega
  | ⟨1, _⟩ => show win0_4.index t (1 : Fin 2) * 512 + 1 * (y 1).val = (y 1).val; rw [e41]; omega

theorem whole5 (c : Dev nD) (t : Fin cfg0.N) (y : S512.Idx) :
    (iblk m c 5 t : Vec Ideal S512 .f32) y = (V m c main_arg4 : S512.Idx → EReal) y := by
  obtain ⟨-, -, -, -, -, -, -, -, -, -, e50, -⟩ := idx_facts t
  unfold iblk
  rw [View.read_apply]
  show V m c main_arg4 _ = V m c main_arg4 _
  congr 1
  funext a; apply Fin.ext
  match a with
  | ⟨0, _⟩ => show win0_5.index t (0 : Fin 1) * 512 + 1 * (y 0).val = (y 0).val; rw [e50]; omega

theorem whole6 (c : Dev nD) (t : Fin cfg0.N) (y : S1x512.Idx) :
    (iblk m c 6 t : Vec Ideal S1x512 .f32) y = (V m c main_v27 : S1x512.Idx → EReal) y := by
  obtain ⟨-, -, -, -, -, -, -, -, -, -, -, e60, e61, -⟩ := idx_facts t
  unfold iblk
  rw [View.read_apply]
  show V m c main_v27 _ = V m c main_v27 _
  congr 1
  funext a; apply Fin.ext
  match a with
  | ⟨0, _⟩ => show win0_6.index t (0 : Fin 2) * 1 + 1 * (y 0).val = (y 0).val; rw [e60]; omega
  | ⟨1, _⟩ => show win0_6.index t (1 : Fin 2) * 512 + 1 * (y 1).val = (y 1).val; rw [e61]; omega

theorem whole7 (c : Dev nD) (t : Fin cfg0.N) (y : S1x1.Idx) :
    (iblk m c 7 t : Vec Ideal S1x1 .f32) y = (V m c main_v28 : S1x1.Idx → EReal) y := by
  obtain ⟨-, -, -, -, -, -, -, -, -, -, -, -, -, e70, e71, -⟩ := idx_facts t
  unfold iblk
  rw [View.read_apply]
  show V m c main_v28 _ = V m c main_v28 _
  congr 1
  funext a; apply Fin.ext
  match a with
  | ⟨0, _⟩ => show win0_7.index t (0 : Fin 2) * 1 + 1 * (y 0).val = (y 0).val; rw [e70]; omega
  | ⟨1, _⟩ => show win0_7.index t (1 : Fin 2) * 1 + 1 * (y 1).val = (y 1).val; rw [e71]; omega

/-- WHAT POINT `t` WRITES BACK is block `t` of `outArr` of the arrays the region finds. -/
theorem flushed_eq (c : Dev nD) (t : Fin cfg0.N) :
    (dats m 0 c).flushed 8 t = ((cfg0.win 8).blk t).view.read (Elt Ideal)
      (outArr (V m c main_v10) (V m c main_v17) (V m c main_v23) (V m c main_v25) (V m c main_v26) (V m c main_arg4)
        (V m c main_v27) (V m c main_v28)) := by
  show (cfg0.win 8).cut (grid0.coords t) ((dats m 0 c).after 8 t) = _
  rw [after0_8]
  unfold out0_8
  rw [View.canon_unit_zero off2]
  simp only [View.ld_unit_zero (S := S2048x512) off2, View.ld_unit_zero (S := S512x512) off2, View.ld_unit_zero (S := S512) off1,
    View.ld_unit_zero (S := S1x512) off2, View.ld_unit_zero (S := S1x1) off2]
  obtain ⟨-, -, -, -, -, -, -, -, -, -, -, -, -, -, -, e80, e81⟩ := idx_facts t
  funext j
  show k0_pay1 (iblk m c 0 t) (iblk m c 1 t) (iblk m c 2 t) (iblk m c 3 t) (iblk m c 4 t) (iblk m c 5 t) (iblk m c 6 t)
      (iblk m c 7 t) j
    = outArr (V m c main_v10) (V m c main_v17) (V m c main_v23) (V m c main_v25) (V m c main_v26) (V m c main_arg4)
        (V m c main_v27) (V m c main_v28) (((cfg0.win 8).blk t).view.emb j)
  have hj0 : (j 0).val < 2048 := (j 0).isLt
  have hrow : ((((cfg0.win 8).blk t).view.emb j) 0).val = t.val * 2048 + (j 0).val := by
    show win0_8.index t (0 : Fin 2) * 2048 + 1 * (j 0).val = _
    rw [e80]; omega
  refine (stored_at (iblk m c 0 t) (iblk m c 1 t) (iblk m c 2 t) (iblk m c 3 t) (iblk m c 4 t) (iblk m c 5 t)
    (iblk m c 6 t) (iblk m c 7 t) j).trans ?_
  unfold outArr
  exact score_congr
    (fun k => hidSplit_congr (fun c' => rows0 m c t (j 0) c' _ hrow) (fun c' => rows1 m c t (j 0) c' _ hrow)
      (fun c' => whole2 m c t (ix2 c' k)) (fun c' => whole3 m c t (ix2 c' k)) (fun c' => whole4 m c t (ix2 c' k))
      (whole5 m c t (ix1 k)))
    (fun k => whole6 m c t (ix2 (0 : Fin 1) k)) (whole7 m c t (ix2 (0 : Fin 1) (0 : Fin 1)))

/-- An index of the result array is in point `t`'s block iff each coordinate is in the block's range on its axis. -/
theorem mem_blk (t : Fin cfg0.N) (i : S131072x1.Idx) :
    i ∈ ((cfg0.win 8).blk t).view.set ↔ ∀ a : Fin 2, win0_8.index t a * S2048x1.size a ≤ (i a).val ∧ (i a).val < win0_8.index t a * S2048x1.size a + S2048x1.size a := by
  show i ∈ ((View.whole main_v29).slice (win0_8.rect t)).set ↔ _
  rw [View.set_slice_whole, Rect.mem_set_unit]
  exact Iff.rfl

/-- Row `p` of the result is in the block of point `p / 2048`: the 64 blocks tile the array. -/
theorem cover (i : S131072x1.Idx) : ∃ t : Fin cfg0.N, (cfg0.win 8).flush t = true ∧ i ∈ ((cfg0.win 8).blk t).view.set := by
  have hi0 : (i 0).val < 131072 := (i 0).isLt
  have hi1 : (i 1).val < 1 := (i 1).isLt
  have hN : cfg0.N = 64 := N_0
  let t : Fin cfg0.N := ⟨(i 0).val / 2048, by rw [hN]; omega⟩
  have ht : t.val = (i 0).val / 2048 := rfl
  obtain ⟨-, -, -, -, -, -, -, -, -, -, -, -, -, -, -, e80, e81⟩ := idx_facts t
  refine ⟨t, flush0_8 t, ?_⟩
  rw [mem_blk]
  intro a
  match a with
  | ⟨0, _⟩ => show win0_8.index t (0 : Fin 2) * 2048 ≤ (i 0).val ∧ (i 0).val < win0_8.index t (0 : Fin 2) * 2048 + 2048; rw [e80, ht]; omega
  | ⟨1, _⟩ => show win0_8.index t (1 : Fin 2) * 1 ≤ (i 1).val ∧ (i 1).val < win0_8.index t (1 : Fin 2) * 1 + 1; rw [e81]; omega

/-- THE ARRAY after the run is `outArr` of the arrays the region finds. -/
theorem final (c : Dev nD) : (dats m 0 c).arrAt 8 cfg0.N
    = outArr (V m c main_v10) (V m c main_v17) (V m c main_v23) (V m c main_v25) (V m c main_v26) (V m c main_arg4)
        (V m c main_v27) (V m c main_v28) :=
  (dats m 0 c).arrAt_eq_of_cover 8 _ (fun t _ => flushed_eq m c t) (cover)

end Cert.KernelIdeal.Hand

end
-- ==== Proof.EntryArrays.lean ====
/-
  What the region finds in the arrays its windows stage: each as a term of the program's arguments.

  Before the kernel is launched the host gathers the source and destination rows from the embedding table (the same
  two gathers the reference makes), cuts the first-layer matrix into its four row blocks `A, B, C, D` of 512 and forms
  `A − C`, `B + C` and `D`, lays the second-layer weights out as one row, and the second bias as a 1×1 array. A change
  of float format is the identity on the extended reals.
-/
import proofs.«147180_j51616916963853_2_alg».proof.Proof.Gen.KernelIdeal.Frame
import proofs.«147180_j51616916963853_2_alg».proof.Proof.Gen.ReferenceIdeal.Read
import proofs.«147180_j51616916963853_2_alg».proof.Proof.Scores
import proofs.«147180_j51616916963853_2_alg».proof.Proof.LibColumn
import Idealize.ShloMosaic.Lib.StableHlo.Run
import Idealize.ShloMosaic.Lib.ValueIdx
import Idealize.ShloMosaic.Lib.ValueLayout

noncomputable section

namespace Cert.KernelIdeal.Hand

open Idealize.ShloMosaic Idealize.ShloMosaic.TcCoe Idealize.SL.Sem Idealize.ShloMosaic.StableHlo
open Idealize.ShloMosaic.ValueIdx Cert.KernelIdeal Cert.KernelIdeal.Gen Cert.PairScore

variable (m : (ℓ : Loc nD τ sig) → Buf (Elt Ideal) ℓ)

/-- The source rows the region finds are the reference's first gather. -/
theorem entry_src (c : Dev nD) :
    (V m c main_v10 : S131072x512.Idx → EReal)
      = Cert.ReferenceIdeal.Read.val_main_v8 (F := Ideal) (m ((c.tc : Thread nD τ).loc main_arg1)) (m ((c.tc : Thread nD τ).loc main_arg2)) := by
  show StableHlo.after hostOps0 (fun b => m (c, b)) (Proc.devRef .tc main_v10) = _
  after_results
  all_goals rfl

/-- The destination rows the region finds are the reference's second gather. -/
theorem entry_dst (c : Dev nD) :
    (V m c main_v17 : S131072x512.Idx → EReal)
      = Cert.ReferenceIdeal.Read.val_main_v17 (F := Ideal) (m ((c.tc : Thread nD τ).loc main_arg1)) (m ((c.tc : Thread nD τ).loc main_arg2)) := by
  show StableHlo.after hostOps0 (fun b => m (c, b)) (Proc.devRef .tc main_v17) = _
  after_results
  all_goals rfl

/-- A row block of the first-layer matrix, from row `512 · q`, at `(c', k)`. -/
theorem rowBlock_apply (W1 : FVec Ideal S2048x512 .f32) (o : Nat) (h : S2048x512.Slices ![o, 0] S512x512) (q : Fin 4)
    (hq : o = q.val * 512) (c' k : Fin 512) :
    extractStridedSlice S512x512 ![o, 0] W1 h (ix2 c' k) = W1 (ix2 (blk q c') k) :=
  slice2_axis0_apply o W1 h c' k (blk q c') (by subst hq; rfl)

/-- The first weight window is `A − C`. -/
theorem entry_wa (c : Dev nD) :
    (V m c main_v23 : S512x512.Idx → EReal) = waOf (m ((c.tc : Thread nD τ).loc main_arg3)) := by
  have e : (V m c main_v23 : S512x512.Idx → EReal)
      = truncf (F := Ideal) .bf16 (subf (extractStridedSlice S512x512 ![0, 0] (m ((c.tc : Thread nD τ).loc main_arg3)) slices_S2048x512_S512x512_0_0)
          (extractStridedSlice S512x512 ![1024, 0] (m ((c.tc : Thread nD τ).loc main_arg3)) slices_S2048x512_S512x512_1024_0)) bitsLt_bf16_f32 := by
    show StableHlo.after hostOps0 (fun b => m (c, b)) (Proc.devRef .tc main_v23) = _
    after_results
    all_goals rfl
  rw [e]
  funext i
  obtain ⟨c', k, rfl⟩ : ∃ (c' k : Fin 512), i = ix2 c' k := ⟨i 0, i 1, eq_ix2 i⟩
  exact congrArg₂ (· - ·) (rowBlock_apply _ 0 _ 0 rfl c' k) (rowBlock_apply _ 1024 _ 2 rfl c' k)

/-- The second weight window is `B + C`. -/
theorem entry_wb (c : Dev nD) :
    (V m c main_v25 : S512x512.Idx → EReal) = wbOf (m ((c.tc : Thread nD τ).loc main_arg3)) := by
  have e : (V m c main_v25 : S512x512.Idx → EReal)
      = truncf (F := Ideal) .bf16 (addf (extractStridedSlice S512x512 ![512, 0] (m ((c.tc : Thread nD τ).loc main_arg3)) slices_S2048x512_S512x512_512_0)
          (extractStridedSlice S512x512 ![1024, 0] (m ((c.tc : Thread nD τ).loc main_arg3)) slices_S2048x512_S512x512_1024_0)) bitsLt_bf16_f32 := by
    show StableHlo.after hostOps0 (fun b => m (c, b)) (Proc.devRef .tc main_v25) = _
    after_results
    all_goals rfl
  rw [e]
  funext i
  obtain ⟨c', k, rfl⟩ : ∃ (c' k : Fin 512), i = ix2 c' k := ⟨i 0, i 1, eq_ix2 i⟩
  exact congrArg₂ (· + ·) (rowBlock_apply _ 512 _ 1 rfl c' k) (rowBlock_apply _ 1024 _ 2 rfl c' k)

/-- The third weight window is `D`. -/
theorem entry_wd (c : Dev nD) :
    (V m c main_v26 : S512x512.Idx → EReal) = wdOf (m ((c.tc : Thread nD τ).loc main_arg3)) := by
  have e : (V m c main_v26 : S512x512.Idx → EReal)
      = truncf (F := Ideal) .bf16 (extractStridedSlice S512x512 ![1536, 0] (m ((c.tc : Thread nD τ).loc main_arg3)) slices_S2048x512_S512x512_1536_0) bitsLt_bf16_f32 := by
    show StableHlo.after hostOps0 (fun b => m (c, b)) (Proc.devRef .tc main_v26) = _
    after_results
    all_goals rfl
  rw [e]
  funext i
  obtain ⟨c', k, rfl⟩ : ∃ (c' k : Fin 512), i = ix2 c' k := ⟨i 0, i 1, eq_ix2 i⟩
  exact rowBlock_apply _ 1536 slices_S2048x512_S512x512_1536_0 3 rfl c' k

/-- The second-layer weights as a row: entry `(0, k)` is the column's entry `(k, 0)`. -/
theorem entry_w2 (c : Dev nD) :
    (V m c main_v27 : S1x512.Idx → EReal) = w2RowOf (m ((c.tc : Thread nD τ).loc main_arg5)) := by
  have e : (V m c main_v27 : S1x512.Idx → EReal)
      = shapeCast S1x512 (m ((c.tc : Thread nD τ).loc main_arg5)) shapeCasts_S512x1_S1x512 := by
    show StableHlo.after hostOps0 (fun b => m (c, b)) (Proc.devRef .tc main_v27) = _
    after_results
    all_goals rfl
  rw [e]
  funext i
  obtain ⟨u, k, rfl⟩ : ∃ (u : Fin 1) (k : Fin 512), i = ix2 u k := ⟨i 0, i 1, eq_ix2 i⟩
  exact LibColumn.shapeCast_a1_1a_apply _ _ u k

/-- The second bias as a 1×1 array. -/
theorem entry_b2 (c : Dev nD) :
    (V m c main_v28 : S1x1.Idx → EReal) = b2Of (m ((c.tc : Thread nD τ).loc main_arg6)) := by
  have e : (V m c main_v28 : S1x1.Idx → EReal)
      = shapeCast S1x1 (m ((c.tc : Thread nD τ).loc main_arg6)) shapeCasts_S1_S1x1 := by
    show StableHlo.after hostOps0 (fun b => m (c, b)) (Proc.devRef .tc main_v28) = _
    after_results
    all_goals rfl
  rw [e]
  funext i
  obtain ⟨u, v, rfl⟩ : ∃ (u v : Fin 1), i = ix2 u v := ⟨i 0, i 1, eq_ix2 i⟩
  obtain rfl : v = 0 := Subsingleton.elim _ _
  exact shapeCast_a_1a_apply _ _ u 0

end Cert.KernelIdeal.Hand

end
-- ==== Proof.LibColumnDrop.lean ====
/-
  A column read back as a vector.

  A matrix with ONE column, shape `[a, 1]`, cast to the vector `[a]` reads, at `i`, the column at `(i, 0)`: both are
  position `i` in row-major order. This is the inverse of casting a vector to a column.
-/
import Idealize.ShloMosaic.Lib.Pipeline.Value
import Idealize.ShloMosaic.Lib.ValueIdx

namespace Cert.LibColumnDrop

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnDrop
-- ==== Proof.KernelRun.lean ====
/-
  The kernel's run, read: the result vector holds `kernelScore` of every pair.

  After the 64 grid points the result array is `outArr` of the arrays the region found; those are the two gathers,
  `A − C`, `B + C`, `D`, the first bias, the second-layer row and the 1×1 second bias; the one host operation after the
  region casts the `[131072, 1]` array to the vector `[131072]`. So entry `p` of the result is `kernelScore` of pair `p`
  on the gathered rows and the argument arrays, and the arguments end as they were.
-/
import proofs.«147180_j51616916963853_2_alg».proof.Proof.BlockRows
import proofs.«147180_j51616916963853_2_alg».proof.Proof.EntryArrays
import proofs.«147180_j51616916963853_2_alg».proof.Proof.LibColumnDrop
import Idealize.ShloMosaic.Lib.StableHlo.Run

noncomputable section

namespace Cert.KernelIdeal.Hand

open Idealize.ShloMosaic Idealize.ShloMosaic.TcCoe Idealize.SL.Sem Idealize.ShloMosaic.StableHlo
open Idealize.ShloMosaic.ValueIdx Cert.KernelIdeal Cert.KernelIdeal.Gen Cert.PairScore
open Idealize.ShloMosaic.Pipeline (Dat)

variable (m : (ℓ : Loc nD τ sig) → Buf (Elt Ideal) ℓ) (ρ : Dev nD → PrngReg)

/-- The result vector: entry `p` is the score of pair `p`, in the kernel's arrangement. -/
def result (c : Dev nD) : Buf (Elt Ideal) ((c.tc : Thread nD τ).loc main_v30) :=
  fun j : S131072.Idx => kernelScore
    (Cert.ReferenceIdeal.Read.val_main_v8 (F := Ideal) (m ((c.tc : Thread nD τ).loc main_arg1)) (m ((c.tc : Thread nD τ).loc main_arg2)))
    (Cert.ReferenceIdeal.Read.val_main_v17 (F := Ideal) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5))
    (m ((c.tc : Thread nD τ).loc main_arg6)) (j 0)

/-- What the host operation after the region leaves in the result vector. -/
theorem tail_eq (c : Dev nD) :
    Pipeline.afterTail₀ cfgs (dats m) 0 (V0 m) [hostOps1] c main_v30 = result m c := by
  unfold Pipeline.afterTail₀
  show StableHlo.after hostOps1 _ (Proc.devRef .tc main_v30) = _
  after_results
  show (shapeCast S131072 (Pipeline.withArrays spec0 c (V0 m c) (fun w => (dats m 0 c).arrAt w cfg0.N) (Proc.devRef .tc main_v29))
    shapeCasts_S131072x1_S131072 : S131072.Idx → EReal) = result m c
  refine (congrArg (fun A : S131072x1.Idx → EReal => (shapeCast S131072 A shapeCasts_S131072x1_S131072 : S131072.Idx → EReal))
    ((Pipeline.withArrays_arr spec0 launch0.win.arr_inj c (V0 m c) (fun w => (dats m 0 c).arrAt w cfg0.N) 8).trans (final m c))).trans ?_
  rw [entry_src m c, entry_dst m c, entry_wa m c, entry_wb m c, entry_wd m c, V_main_arg4 m c, entry_w2 m c, entry_b2 m c]
  funext j
  obtain ⟨p, rfl⟩ : ∃ p : Fin 131072, j = ix1 p := ⟨j 0, eq_ix1 j⟩
  exact (LibColumnDrop.shapeCast_a1_a_apply _ _ p).trans (outArr_prepared _ _ _ _ _ _ p 0)

/-- THE RUN, READ: every weakly fair execution terminates with the result vector at `result` and the arguments unchanged. -/
theorem run : θ_run defs (onTc (τ := τ) (main (F := Ideal))) ⟨m, fun _ => 0, ρ⟩ (fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v30 (Pipeline.mem_restRefs_of main_v30 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand

end
-- ==== Proof.ReferenceValue.lean ====
/-
  The reference's result at pair `p` is `refScore` of the gathered rows and the weight arrays.

  Read one operation at a time: the joined feature array at `(p, c)` is the piece of `[src, dst, dst − src, src · dst]`
  whose span holds `c`; the first product is a sum over the 2048 joined coordinates; the rectifier is a maximum with the
  zero word; the second product is a sum over the 512 hidden units; and `1 / (1 + exp (−x))` is the logistic function.
-/
import proofs.«147180_j51616916963853_2_alg».proof.Proof.Gen.ReferenceIdeal.Read
import proofs.«147180_j51616916963853_2_alg».proof.Proof.Scores
import Idealize.ShloMosaic.Lib.IdealHost
import Idealize.ShloMosaic.Lib.Pipeline.Value
import Idealize.ShloMosaic.Lib.ValueIdx

noncomputable section

namespace Cert.ReferenceIdeal.Hand

open Idealize.ShloMosaic Idealize.ShloMosaic.ValueIdx Cert.ReferenceIdeal Cert.ReferenceIdeal.Gen Cert.ReferenceIdeal.Read
open Cert.PairScore

/-- One of the four pieces of a joined row: the joined array at `(p, c)` is piece `k` at `(p, c')` when `c = 512·k + c'`. -/
theorem piece_apply (y0 y1 y2 y3 : S131072x512.Idx → EReal) (p : Fin 131072) (c : Fin 2048) (k : Nat) (hk : k < 4)
    (y : S131072x512.Idx → EReal)
    (hy : ([⟨S131072x512, y0⟩, ⟨S131072x512, y1⟩, ⟨S131072x512, y2⟩, ⟨S131072x512, y3⟩] : List ((s : Shape) × (s.Idx → EReal)))[k] = ⟨S131072x512, y⟩)
    (c' : Fin 512) (hc : k * 512 + c'.val = c.val) :
    concatenate S131072x2048 1 [⟨S131072x512, y0⟩, ⟨S131072x512, y1⟩, ⟨S131072x512, y2⟩, ⟨S131072x512, y3⟩]
      concatenates_S131072x512_S131072x512_S131072x512_S131072x512_S131072x2048_d1 (ix2 p c) = y (ix2 p c') := by
  refine concatenate_apply_piece (t := S131072x2048) 1
    [⟨S131072x512, y0⟩, ⟨S131072x512, y1⟩, ⟨S131072x512, y2⟩, ⟨S131072x512, y3⟩]
    concatenates_S131072x512_S131072x512_S131072x512_S131072x512_S131072x2048_d1 (ix2 p c) k hk S131072x512 y hy rfl (k * 512) ?_ (ix2 p c')
    (fun b hb => by match b with | ⟨0, _⟩ => rfl | ⟨1, _⟩ => exact absurd rfl hb) hc
  interval_cases k <;> rfl

/-- The joined feature array at pair `p` and joined coordinate `c`. -/
theorem joined_apply (x1 : FVec Ideal S16384x512 .f32) (x2 : IVec S131072x2 32) (p : Fin 131072) (c : Fin 2048) :
    val_main_v20 (F := Ideal) x1 x2 (ix2 p c)
      = feat (fun c' => val_main_v8 (F := Ideal) x1 x2 (ix2 p c')) (fun c' => val_main_v17 (F := Ideal) x1 x2 (ix2 p c')) c := by
  have hc := c.isLt
  unfold val_main_v20 feat
  split
  · next h0 =>
    exact piece_apply _ _ _ _ p c 0 (by omega) _ rfl ⟨c.val, h0⟩ (by show 0 * 512 + c.val = c.val; omega)
  · next h0 =>
    split
    · next h1 =>
      exact piece_apply _ _ _ _ p c 1 (by omega) _ rfl ⟨c.val - 512, by omega⟩ (by show 1 * 512 + (c.val - 512) = c.val; omega)
    · next h1 =>
      split
      · next h2 =>
        exact piece_apply _ _ _ _ p c 2 (by omega) _ rfl ⟨c.val - 1024, by omega⟩ (by show 2 * 512 + (c.val - 1024) = c.val; omega)
      · next h2 =>
        exact piece_apply _ _ _ _ p c 3 (by omega) _ rfl ⟨c.val - 1536, by omega⟩ (by show 3 * 512 + (c.val - 1536) = c.val; omega)

/-- A hidden unit's pre-activation at pair `p`, unit `k`. -/
theorem hidden_apply (x1 : FVec Ideal S16384x512 .f32) (x2 : IVec S131072x2 32) (x3 : FVec Ideal S2048x512 .f32)
    (x4 : FVec Ideal S512 .f32) (p : Fin 131072) (k : Fin 512) :
    val_main_v24 (F := Ideal) x1 x2 x3 x4 (ix2 p k)
      = hidCat (fun c' => val_main_v8 (F := Ideal) x1 x2 (ix2 p c')) (fun c' => val_main_v17 (F := Ideal) x1 x2 (ix2 p c'))
          (fun c => x3 (ix2 c k)) (x4 (ix1 k)) := by
  rw [val_main_v24_apply, val_main_v21_apply, val_main_v23_apply, val_main_v22_apply]
  unfold hidCat
  refine congrArg₂ (· + ·) (Finset.sum_congr rfl fun c _ => ?_) (congrArg x4 ?_)
  · have el : lidx_main_v21 (ix2 p k) c = ix2 p c := funext fun a => Fin.ext (by match a with | ⟨0, _⟩ => rfl | ⟨1, _⟩ => rfl)
    have er : ridx_main_v21 (ix2 p k) c = ix2 c k := funext fun a => Fin.ext (by match a with | ⟨0, _⟩ => rfl | ⟨1, _⟩ => rfl)
    rw [el, er, joined_apply]
  · exact funext fun a => Fin.ext (by match a with | ⟨0, _⟩ => rfl)

/-- THE REFERENCE'S RESULT at pair `p`. -/
theorem result_apply (x1 : FVec Ideal S16384x512 .f32) (x2 : IVec S131072x2 32) (x3 : FVec Ideal S2048x512 .f32)
    (x4 : FVec Ideal S512 .f32) (x5 : FVec Ideal S512x1 .f32) (x6 : FVec Ideal S1 .f32) (p : Fin 131072) :
    val_main_v36 (F := Ideal) x1 x2 x3 x4 x5 x6 (ix1 p)
      = refScore (val_main_v8 (F := Ideal) x1 x2) (val_main_v17 (F := Ideal) x1 x2) x3 x4 x5 x6 p := by
  have e36 : idx_main_v36 (ix1 p) = ix2 p (0 : Fin 1) := funext fun a => Fin.ext (by
    match a with | ⟨0, _⟩ => exact Nat.div_one _ | ⟨1, _⟩ => rfl)
  rw [val_main_v36_apply, e36, val_main_v35_apply, val_main_v34_apply, val_main_cst_3_apply, val_main_v33_apply,
    val_main_v32_apply, val_main_cst_apply, val_main_v31_apply, val_main_v30_apply, val_main_v29_apply,
    val_main_v26_apply, val_main_v28_apply, val_main_v27_apply]
  show Ideal.div (Ideal.ofBits .f32 0x3F800000#32) (Ideal.ofBits .f32 0x3F800000#32 + Ideal.exp (-(_ + _))) = _
  rw [Ideal.ofBits_one_f32]
  unfold refScore score Ideal.logistic
  refine congrArg (fun x : EReal => Ideal.div 1 (1 + Ideal.exp (-x))) ?_
  refine congrArg₂ (· + ·) (Finset.sum_congr rfl fun k _ => ?_) (congrArg x6 ?_)
  · have el : lidx_main_v26 (ix2 p (0 : Fin 1)) k = ix2 p k := funext fun a => Fin.ext (by match a with | ⟨0, _⟩ => rfl | ⟨1, _⟩ => rfl)
    have er : ridx_main_v26 (ix2 p (0 : Fin 1)) k = ix2 k (0 : Fin 1) := funext fun a => Fin.ext (by match a with | ⟨0, _⟩ => rfl | ⟨1, _⟩ => rfl)
    rw [el, er, val_main_v25_apply, hidden_apply, val_main_call0_v0_apply, val_main_call0_cst_apply]
    rfl
  · exact funext fun a => Fin.ext (by match a with | ⟨0, _⟩ => rfl)

/-- Every gathered source entry is an entry of the embedding table, so it is a real number when the table's entries are. -/
theorem src_real (x1 : FVec Ideal S16384x512 .f32) (x2 : IVec S131072x2 32) (h : ∀ i, ∃ r : ℝ, x1 i = (r : EReal))
    (i : S131072x512.Idx) : ∃ r : ℝ, val_main_v8 (F := Ideal) x1 x2 i = (r : EReal) := by
  unfold val_main_v8 Host.gather
  exact h _

/-- Every gathered destination entry is an entry of the embedding table. -/
theorem dst_real (x1 : FVec Ideal S16384x512 .f32) (x2 : IVec S131072x2 32) (h : ∀ i, ∃ r : ℝ, x1 i = (r : EReal))
    (i : S131072x512.Idx) : ∃ r : ℝ, val_main_v17 (F := Ideal) x1 x2 i = (r : EReal) := by
  unfold val_main_v17 Host.gather
  exact h _

end Cert.ReferenceIdeal.Hand

end
-- ==== Proof.FiniteInputs.lean ====
/-
  The precondition says every float input is finite; read here for the two inputs whose finiteness the
  algebra uses: the embedding table and the first layer's weights.
-/
import proofs.«147180_j51616916963853_2_alg».proof.Pre_finite_inputs
import proofs.«147180_j51616916963853_2_alg».proof.Proof.Gen.Pre_finite_inputs
import Idealize.ShloMosaic.PureOps.Ideal
import Idealize.ShloMosaic.Lib.ReduceAll

noncomputable section

namespace Cert.PairScore

open Idealize.ShloMosaic Cert.Pre_finite_inputs

/-- The rank-0 shape has exactly one index. -/
instance : Subsingleton S_.Idx := ⟨fun a b => funext fun d => d.elim0⟩

/-- The f32 pattern 0x7F800000 (all-ones exponent, zero fraction, positive sign) denotes +∞, the top of the extended reals. -/
theorem inf_pattern : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- An extended real x with |x| = max x (-x) strictly below +∞ is a real number: at x = ⊥ and at x = ⊤ the absolute
    value is ⊤, which is not below ⊤. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.ofBits_def, inf_pattern] at h
  change Ideal.cmp .olt (max x (-x)) ⊤ = 1#1 at h
  unfold Ideal.cmp at h
  rw [ofBool_eq_one] at h
  simp only [decide_eq_true_eq] at h
  induction x using EReal.rec with
  | bot => simp at h
  | top => simp at h
  | coe r => exact ⟨r, rfl⟩

/-- One input's conjunct, for any shape: if the conjunction over all entries of |x| < +∞ is 1, then every entry of x is a
    real number. The conjunction over all axes has a single result, so each entry's comparison is 1. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) (i : s.Idx) : ∃ r : ℝ, x i = (r : EReal) :=
  real_of_abs_lt_inf (x i) (Host.reduce_andi_all _ _ hr hu j e i)

/-- If the finiteness predicate is all ones on the seven inputs, every entry of the embedding table and every entry of the
    first layer's weights is a real number. -/
theorem finite_of_pre (a0 : FVec Ideal S16384x4 .f32) (a1 : FVec Ideal S16384x512 .f32) (a2 : IVec S131072x2 32)
    (a3 : FVec Ideal S2048x512 .f32) (a4 : FVec Ideal S512 .f32) (a5 : FVec Ideal S512x1 .f32) (a6 : FVec Ideal S1 .f32)
    (h : Cert.Pre_finite_inputs.fn (F := Ideal) a0 a1 a2 a3 a4 a5 a6 = fun _ => 1#1) :
    (∀ i, ∃ r : ℝ, a1 i = (r : EReal)) ∧ (∀ i, ∃ r : ℝ, a3 i = (r : EReal)) := by
  -- the predicate's value at its one index is 1
  have e := congrFun h (fun a => a.elim0)
  unfold Cert.Pre_finite_inputs.fn Cert.Pre_finite_inputs.fn_part1 at e
  dsimp only at e
  -- a conjunction of one-bit words is 1 exactly when each word is 1; the chain is nested to the left, one word per
  -- float input in argument order (the integer input a2 contributes none), so the second word is a1's and the third a3's
  simp only [andi, IntOp.andi_eq_one] at e
  obtain ⟨⟨⟨⟨⟨-, h1⟩, h3⟩, -⟩, -⟩, -⟩ := e
  exact ⟨fun i => real_of_all a1 _ _ _ _ h1 i, fun i => real_of_all a3 _ _ _ _ h3 i⟩

end Cert.PairScore

end
-- ==== Proof.lean ====
/-
  The claim: a Pallas kernel that scores 131072 pairs of embedding rows with a two-layer perceptron agrees, on the
  extended reals, with its jnp reference.

  Both programs gather a source row `s` and a destination row `d` (512 wide) per pair from the embedding table, by the
  same two gathers. The reference joins `[s, d, d − s, s · d]` into a row of 2048, multiplies it with the 2048×512
  matrix `W1`, adds `b1`, rectifies, multiplies with the 512×1 matrix `W2`, adds `b2` and applies `1 / (1 + exp (−x))`.
  The kernel cuts `W1` into its four row blocks `A, B, C, D`, forms `A − C` and `B + C` on the host, and on each of 64
  grid points computes, for 2048 pairs, `s·(A − C) + d·(B + C) + (s·d)·D + b1`, rectifies, takes the sum along the row of
  the products with `W2` laid out as a row, adds `b2` and applies the logistic function. The two pre-activations are the
  same number by distributivity, `s·(A − C) + d·(B + C) = s·A + d·B + (d − s)·C`, which on the extended reals needs the
  gathered rows and `W1` to be finite: that is what the precondition gives. Everything after the pre-activation is the same
  function on both sides, infinities included.

  The three frames: the two kernels' are generated whole; the reference's is its generated run with the result dropped.
  The idealization rewrote nothing, so `preserves` is trivial. For `algebraic`: the kernel's run is read in
  Proof/KernelRun.lean (the result vector is `kernelScore` of every pair), the reference's result at a pair is `refScore`
  (Proof/ReferenceValue.lean), and the two scores agree on finite data (Proof/Scores.lean, Proof/PairAlgebra.lean).
-/
import proofs.«147180_j51616916963853_2_alg».proof.Defs
import proofs.«147180_j51616916963853_2_alg».proof.Proof.Gen.Kernel
import proofs.«147180_j51616916963853_2_alg».proof.Proof.Gen.Kernel.Skeleton
import proofs.«147180_j51616916963853_2_alg».proof.Proof.Gen.Kernel.Launch
import proofs.«147180_j51616916963853_2_alg».proof.Proof.Gen.Kernel.Points
import proofs.«147180_j51616916963853_2_alg».proof.Proof.Gen.Kernel.Frame
import proofs.«147180_j51616916963853_2_alg».proof.Proof.Gen.KernelIdeal
import proofs.«147180_j51616916963853_2_alg».proof.Proof.Gen.KernelIdeal.Skeleton
import proofs.«147180_j51616916963853_2_alg».proof.Proof.Gen.KernelIdeal.Launch
import proofs.«147180_j51616916963853_2_alg».proof.Proof.Gen.KernelIdeal.Points
import proofs.«147180_j51616916963853_2_alg».proof.Proof.Gen.KernelIdeal.Frame
import proofs.«147180_j51616916963853_2_alg».proof.Proof.Gen.ReferenceIdeal
import proofs.«147180_j51616916963853_2_alg».proof.Proof.Gen.Pre_finite_inputs
import proofs.«147180_j51616916963853_2_alg».proof.Proof.Gen.ReferenceIdeal.Run
import proofs.«147180_j51616916963853_2_alg».proof.Proof.Gen.ReferenceIdeal.Read
import proofs.«147180_j51616916963853_2_alg».proof.Proof.KernelRun
import proofs.«147180_j51616916963853_2_alg».proof.Proof.ReferenceValue
import proofs.«147180_j51616916963853_2_alg».proof.Proof.FiniteInputs
import proofs.«147180_j51616916963853_2_alg».proof.Proof.Scores
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result vector is `kernelScore` of every pair and the
    reference's is `refScore` of every pair, over the same gathered rows and the same weights; the precondition makes
    the embedding table and `W1` finite, and on finite data the two scores are equal. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨-, a1, a2, a3, a4, a5, a6⟩ := hagree c
  rw [Cert.ReferenceIdeal.Read.val_main_v36_eq, a1, a2, a3, a4, a5, a6]
  obtain ⟨h1, h3⟩ := Cert.PairScore.finite_of_pre _ _ _ _ _ _ _ (hpre c)
  funext j
  obtain ⟨p, rfl⟩ : ∃ p : Fin 131072, j = ValueIdx.ix1 p := ⟨j 0, ValueIdx.eq_ix1 j⟩
  rw [Cert.ReferenceIdeal.Hand.result_apply]
  exact (Cert.PairScore.kernelScore_eq_refScore _ _ _ _ _ _ (Cert.ReferenceIdeal.Hand.src_real _ _ h1)
    (Cert.ReferenceIdeal.Hand.dst_real _ _ h1) h3 p).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
